-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x4096x4096 .f32) (main_arg1 : FVec F S4096x4096 .f32) (main_arg2 : FVec F S4096 .f32) (main_arg3 : FVec F S16x4096 .f32) (main_arg4 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S16384x4096 : Shape := ⟨2, ![16384, 4096]⟩
abbrev S1x4096 : Shape := ⟨2, ![1, 4096]⟩
abbrev S2048x256 : Shape := ⟨2, ![2048, 256]⟩
abbrev S1024x256 : Shape := ⟨2, ![1024, 256]⟩
abbrev S1024x16 : Shape := ⟨2, ![1024, 16]⟩
abbrev S1x1024 : Shape := ⟨2, ![1, 1024]⟩
abbrev S2048x1024 : Shape := ⟨2, ![2048, 1024]⟩
abbrev S2048x16 : Shape := ⟨2, ![2048, 16]⟩
abbrev S16x256 : Shape := ⟨2, ![16, 256]⟩

abbrev nBuf : Space → Nat
  | .hbm => 13
  | .vmem => 13
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S16384x4096, .f32⟩
  | .hbm, ⟨6, _⟩ => ⟨S16384x4096, .bf16⟩
  | .hbm, ⟨7, _⟩ => ⟨S4096x4096, .bf16⟩
  | .hbm, ⟨8, _⟩ => ⟨S16x4096, .bf16⟩
  | .hbm, ⟨9, _⟩ => ⟨S4096x16, .bf16⟩
  | .hbm, ⟨10, _⟩ => ⟨S1x4096, .f32⟩
  | .hbm, ⟨11, _⟩ => ⟨S16384x4096, .f32⟩
  | .hbm, ⟨12, _⟩ => ⟨S4x4096x4096, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S16x4096, .bf16⟩
  | .local _ .vmem, ⟨5, _⟩ => ⟨S1024x16, .bf16⟩
  | .local _ .vmem, ⟨6, _⟩ => ⟨S1024x16, .bf16⟩
  | .local _ .vmem, ⟨7, _⟩ => ⟨S1x1024, .f32⟩
  | .local _ .vmem, ⟨8, _⟩ => ⟨S1x1024, .f32⟩
  | .local _ .vmem, ⟨9, _⟩ => ⟨S2048x1024, .f32⟩
  | .local _ .vmem, ⟨10, _⟩ => ⟨S2048x1024, .f32⟩
  | .local _ .vmem, ⟨11, _⟩ => ⟨S2048x1024, .f32⟩
  | .local _ .vmem, ⟨12, _⟩ => ⟨S2048x16, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 16], ![false, false, false]⟩

def k0_mult1 (i : grid0.Coords) : BitVec 32 :=
  let arg2 : BitVec 32 := BitVec.ofNat 32 (i 2).val
  let c256_i32 : BitVec 32 := 256#32
  let v7 : BitVec 32 := Scalar.muli arg2 c256_i32
  v7
def k0_off1 (i : grid0.Coords) : Fin 2 → Nat :=
  let c0_4 : Index := 0#32
  let arg2 : BitVec 32 := BitVec.ofNat 32 (i 2).val
  let c256_i32 : BitVec 32 := 256#32
  let v7 : BitVec 32 := Scalar.muli arg2 c256_i32
  let v8 : BitVec 32 := v7
  let v9 : Index := Scalar.indexCast v8
  ![0, v9.toNat]
def k0_cond2 (i : grid0.Coords) : BitVec 1 :=
  let arg2 : BitVec 32 := BitVec.ofNat 32 (i 2).val
  let c15_i32 : BitVec 32 := 15#32
  let v24 : BitVec 1 := Scalar.cmpi .eq arg2 c15_i32
  let v25 : BitVec 32 := Scalar.extui v24
  let c0_i32_14 : BitVec 32 := 0#32
  let v26 : BitVec 1 := Scalar.cmpi .ne v25 c0_i32_14
  v26

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S16x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x4096x4096_S16384x4096 : S4x4096x4096.ShapeCasts S16384x4096
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  h_S16x256 : 0 < S16x256.numel
  shapeCasts_S16x256_S16x256 : S16x256.ShapeCasts S16x256
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S16384x4096_S4x4096x4096 : S16384x4096.ShapeCasts S4x4096x4096
  dot_S2048x256_S1024x256_S2048x1024_1_1_0_0_n_n_wf : DotDims.WF S2048x256 S1024x256 S2048x1024 [1] [1] [0] [0] [] []
  dot_S2048x256_S16x256_S2048x16_1_1_0_0_n_n_wf : DotDims.WF S2048x256 S16x256 S2048x16 [1] [1] [0] [0] [] []
  dot_S2048x16_S1024x16_S2048x1024_1_1_0_0_n_n_wf : DotDims.WF S2048x16 S1024x16 S2048x1024 [1] [1] [0] [0] [] []
  hrank0 : 0 < grid0.rank
  k0_mult1_dvd : ∀ i : grid0.Coords, 256 ∣ (k0_mult1 i).toNat
  k0_off1_inb : ∀ i : grid0.Coords, ∀ a, (k0_off1 i) a + S16x256.size a ≤ S16x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x4096.size a
  hwx0_0 : ∀ i : grid0.Coords, EltTy.bits .bf16 = 32 ∨ (Rect.block (s := S16384x4096) S2048x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x4096.size a
  hwx0_1 : ∀ i : grid0.Coords, EltTy.bits .bf16 = 32 ∨ (Rect.block (s := S4096x4096) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .bf16 = 32 ∨ (Rect.block (s := S16x4096) S16x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S4096x16.size a
  hwx0_3 : ∀ i : grid0.Coords, EltTy.bits .bf16 = 32 ∨ (Rect.block (s := S4096x16) S1024x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x1024.size a ≤ S16384x4096.size a
  hwx0_5 : ∀ i : grid0.Coords, EltTy.bits .f32 = 32 ∨ (Rect.block (s := S16384x4096) S2048x1024.size (cc0_transform_5 i) (hinb0_5 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf
def dot_S2048x256_S16x256_S2048x16_1_1_0_0_n_n : DotDims S2048x256 S16x256 S2048x16 where
  lhsContracting := [1]
  rhsContracting := [1]
  lhsNonContracting := [0]
  rhsNonContracting := [0]
  lhsBatch := []
  rhsBatch := []
  wf := dot_S2048x256_S16x256_S2048x16_1_1_0_0_n_n_wf
def dot_S2048x16_S1024x16_S2048x1024_1_1_0_0_n_n : DotDims S2048x16 S1024x16 S2048x1024 where
  lhsContracting := [1]
  rhsContracting := [1]
  lhsNonContracting := [0]
  rhsNonContracting := [0]
  lhsBatch := []
  rhsBatch := []
  wf := dot_S2048x16_S1024x16_S2048x1024_1_1_0_0_n_n_wf

abbrev win0_0 : Pipeline.Window sig grid0 :=
  Pipeline.Window.ofSpec (Memref.whole main_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2048x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x1x4096 : Shape := ⟨3, ![1, 1, 4096]⟩
abbrev S4x4096x16 : Shape := ⟨3, ![4, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S4x4096x16, .f32⟩
  | .hbm, ⟨10, _⟩ => ⟨S4x4096x4096, .f32⟩
  | .hbm, ⟨11, _⟩ => ⟨S_, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x4096x4096_S4096x4096_S4x4096x4096_2_1_01_0_n_n_wf : DotDims.WF S4x4096x4096 S4096x4096 S4x4096x4096 [2] [1] [0, 1] [0] [] []
  dot_S4x4096x4096_S16x4096_S4x4096x16_2_1_01_0_n_n_wf : DotDims.WF S4x4096x4096 S16x4096 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S4096x4096_S4x4096x4096_2_1_01_0_n_n : DotDims S4x4096x4096 S4096x4096 S4x4096x4096 where
  lhsContracting := [2]
  rhsContracting := [1]
  lhsNonContracting := [0, 1]
  rhsNonContracting := [0]
  lhsBatch := []
  rhsBatch := []
  wf := dot_S4x4096x4096_S4096x4096_S4x4096x4096_2_1_01_0_n_n_wf
def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.Pieces.lean ====
/-
  What one grid point's body leaves in its two accumulators and, at the last step of a run of sixteen, in the output
  block — each as the body's arithmetic applied to the blocks it loaded.

  The body keeps two running sums: `acc` [2048, 1024] (the dense product) and `xa` [2048, 16] (the rank-16 product).
  At the first step of a run both are zeroed and then the step's partial product is added; at every later step the
  partial product is added to what the step before left; at the last step the output block is formed from the two
  finished sums, the bias row and the second low-rank factor.  Of A, held whole, a step reads 256 consecutive columns.
-/
import proofs.«169977_j42356967473845_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.LoraPieces

open Cert.KernelIdeal Cert.KernelIdeal.Gen

variable {F : FTy → Type} [FloatOps F]

theorem hz : (![0, 0] : Fin 2 → Nat) = fun _ => 0 := funext fun a => by fin_cases a <;> rfl

/-- The 256 columns of A (held whole, [16, 4096]) that the step at grid coordinates `i` reads. -/
def aCols (i : grid0.Coords) (x2 : Vec F S16x4096 .bf16) : Vec F S16x256 .bf16 :=
  View.ld x2 (Rect.unit (s := S16x4096) (k0_off1 i) S16x256.size (k0_off1_inb i))

/-! ## The first step of a run: zero, then add -/

/-- The first step leaves the dense running sum at zero plus its partial product. -/
theorem acc_A (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0_0 i) (hc1 : ¬cond0_1 i) (x0 : Vec F S2048x256 .bf16) (x1 : Vec F S1024x256 .bf16) (x2 : Vec F S16x4096 .bf16) (x3 : Vec F S1024x16 .bf16) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 k0_pay1 := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]

/-- The first step leaves the rank-16 running sum at zero plus its partial product. -/
theorem xa_A (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : cond0_0 i) (hc1 : ¬cond0_1 i) (x0 : Vec F S2048x256 .bf16) (x1 : Vec F S1024x256 .bf16) (x2 : Vec F S16x4096 .bf16) (x3 : Vec F S1024x16 .bf16) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 (aCols i x2) k0_pay2 := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S2048x16) hz, View.readCov_unit_zero (S := S2048x16) _ hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]
  rfl

/-! ## A middle step: add to what the step before left -/

/-- A middle step adds its partial dense product to the running sum. -/
theorem acc_B (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : ¬cond0_1 i) (x0 : Vec F S2048x256 .bf16) (x1 : Vec F S1024x256 .bf16) (x2 : Vec F S16x4096 .bf16) (x3 : Vec F S1024x16 .bf16) (x4 : Vec F S1x1024 .f32) (xs0 : Vec F S2048x1024 .f32) (xs1 : Vec F S2048x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]

/-- A middle step adds its partial rank-16 product to the running sum. -/
theorem xa_B (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : ¬cond0_1 i) (x0 : Vec F S2048x256 .bf16) (x1 : Vec F S1024x256 .bf16) (x2 : Vec F S16x4096 .bf16) (x3 : Vec F S1024x16 .bf16) (x4 : Vec F S1x1024 .f32) (xs0 : Vec F S2048x1024 .f32) (xs1 : Vec F S2048x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 (aCols i x2) xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  rw [View.canon_unit_zero hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]
  rfl

/-! ## The last step: add, then form the output block from the finished sums -/

/-- The last step adds its partial dense product like any other. -/
theorem acc_C (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x256 .bf16) (x1 : Vec F S1024x256 .bf16) (x2 : Vec F S16x4096 .bf16) (x3 : Vec F S1024x16 .bf16) (x4 : Vec F S1x1024 .f32) (xs0 : Vec F S2048x1024 .f32) (xs1 : Vec F S2048x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]

/-- The last step adds its partial rank-16 product like any other. -/
theorem xa_C (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x256 .bf16) (x1 : Vec F S1024x256 .bf16) (x2 : Vec F S16x4096 .bf16) (x3 : Vec F S1024x16 .bf16) (x4 : Vec F S1x1024 .f32) (xs0 : Vec F S2048x1024 .f32) (xs1 : Vec F S2048x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 (aCols i x2) xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]
  rfl

/-- The output block the last step stores: formed from the two sums as this very step finished them. -/
theorem out_C (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S16x4096 .bf16) (harg5 : arg5.IsWhole) (arg6 : Memref sig .tc .vmem S1024x16 .bf16) (harg6 : arg6.IsWhole) (arg7 : Memref sig .tc .vmem S1x1024 .f32) (harg7 : arg7.IsWhole) (arg8 : Memref sig .tc .vmem S2048x1024 .f32) (harg8 : arg8.IsWhole) (arg9 : Memref sig .tc .vmem S2048x1024 .f32) (harg9 : arg9.IsWhole) (arg10 : Memref sig .tc .vmem S2048x16 .f32) (harg10 : arg10.IsWhole) (hc0 : ¬cond0_0 i) (hc1 : cond0_1 i) (x0 : Vec F S2048x256 .bf16) (x1 : Vec F S1024x256 .bf16) (x2 : Vec F S16x4096 .bf16) (x3 : Vec F S1024x16 .bf16) (x4 : Vec F S1x1024 .f32) (xs0 : Vec F S2048x1024 .f32) (xs1 : Vec F S2048x16 .f32) :
    out0_C_5 c i arg3 harg3 arg4 harg4 arg5 harg5 arg6 harg6 arg7 harg7 arg8 harg8 arg9 harg9 arg10 harg10 hc0 hc1 x0 x1 x2 x3 x4 xs0 xs1 = k0_pay6 x3 (k0_pay5 x0 (aCols i x2) xs1) (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz, View.readCov_unit_zero (S := S2048x16) _ hz, View.readCov_unit_zero (S := S2048x1024) _ hz]
  simp only [View.readAt_eq_ld, harg3.read_unread, harg4.read_unread, harg5.read_unread, harg6.read_unread, harg7.read_unread, harg9.read_unread, harg10.read_unread, View.ld_unit_zero (S := S2048x256) hz, View.ld_unit_zero (S := S1024x256) hz, View.ld_unit_zero (S := S2048x1024) hz, View.ld_unit_zero (S := S2048x16) hz, View.ld_unit_zero (S := S1024x16) hz, View.ld_unit_zero (S := S1x1024) hz]
  rfl

end Cert.KernelIdeal.LoraPieces

end
-- ==== Proof.Spec.lean ====
/-
  The function both programs compute, on the extended reals, index by index.

  With x : [4, 4096, 4096], W : [4096, 4096], b : [4096], A : [16, 4096], B : [4096, 16], the entry (bt, s, o) is

      (Σ_d x[bt,s,d] · W[o,d] + b[o]) + 1 · Σ_r (Σ_d x[bt,s,d] · A[r,d]) · B[o,r]

  — a dense layer plus a rank-16 correction, the factor 1 kept as the same float word on both sides.  `Gat` states it
  at coordinates, `G` as an array.  `outAt` / `outArr` state the same for the batch and sequence axes flattened into
  one row axis M = 4096·bt + s (the form the tiled computation produces), with the bias as a [1, 4096] row.
-/
import Idealize.ShloMosaic.PureOps.Ideal
import Idealize.ShloMosaic.Lib.ValueIdx

noncomputable section

namespace Cert.LoraSpec

open Idealize.ShloMosaic Idealize.ShloMosaic.ValueIdx

/-- The scaling factor: the float word of 1.0, read as an extended real. -/
abbrev one : EReal := Ideal.ofBits .f32 0x3F800000#32

/-- Entry (bt, s, o) of the result. -/
def Gat (x : (⟨3, ![4, 4096, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) (bt : Fin 4) (s : Fin 4096) (o : Fin 4096) : EReal :=
  ((∑ d : Fin 4096, x (ix3 bt s d) * W (ix2 o d)) + b (ix1 o))
    + one * ∑ r : Fin 16, (∑ d : Fin 4096, x (ix3 bt s d) * A (ix2 r d)) * B (ix2 o r)

/-- The result array. -/
def G (x : (⟨3, ![4, 4096, 4096]⟩ : Shape).Idx → EReal) (W : (⟨2, ![4096, 4096]⟩ : Shape).Idx → EReal)
    (b : (⟨1, ![4096]⟩ : Shape).Idx → EReal) (A : (⟨2, ![16, 4096]⟩ : Shape).Idx → EReal)
    (B : (⟨2, ![4096, 16]⟩ : Shape).Idx → EReal) : (⟨3, ![4, 4096, 4096]⟩ : Shape).Idx → EReal :=
  fun i => Gat x W b A B (i 0) (i 1) (i 2)

/-- Entry (M, o) of the result with the two leading axes flattened into rows, the bias a [1, 4096] row. -/
def outAt (X : (⟨2, ![16384, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨2, ![1, 4096]⟩ : Shape).Idx → EReal) (M : Fin 16384) (o : Fin 4096) : EReal :=
  ((∑ d : Fin 4096, X (ix2 M d) * W (ix2 o d)) + bias (ix2 (0 : Fin 1) o))
    + one * ∑ r : Fin 16, (∑ d : Fin 4096, X (ix2 M d) * A (ix2 r d)) * B (ix2 o r)

/-- The flattened result array. -/
def outArr (X : (⟨2, ![16384, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨2, ![1, 4096]⟩ : Shape).Idx → EReal) : (⟨2, ![16384, 4096]⟩ : Shape).Idx → EReal :=
  fun j => outAt X W A B bias (j 0) (j 1)

end Cert.LoraSpec

end
-- ==== Proof.Payloads.lean ====
/-
  The body's arithmetic read at one entry, on the extended reals.

  A matrix product into a zero accumulator, contracting the second axis of both operands, is at entry (p, q) the sum
  over d of l[p, d] · r[q, d].  So one step adds Σ_d x[p,d]·w[q,d] to the dense running sum and Σ_d x[p,d]·a[r,d] to
  the rank-16 one, and the last step forms (acc[p,q] + bias[0,q]) + 1 · Σ_r xa[p,r]·b[q,r].  A change of float format
  is the identity here, and the zero word is the number 0.
-/
import proofs.«169977_j42356967473845_2_alg».proof.Proof.Gen.KernelIdeal.Skeleton
import proofs.«169977_j42356967473845_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.LoraPayloads

open Cert.KernelIdeal Cert.KernelIdeal.Gen

/-- The dense step's product at an entry: rows of the x block against rows of the W block. -/
theorem dense_dot (l : FVec Ideal S2048x256 .bf16) (r : FVec Ideal S1024x256 .bf16) (p : Fin 2048) (q : Fin 1024) :
    matmul dot_S2048x256_S1024x256_S2048x1024_1_1_0_0_n_n none l r (constant (F := Ideal) S2048x1024 .f32 0x00000000#32) (ix2 p q)
      = ∑ d : Fin 256, l (ix2 p d) * r (ix2 q d) := by
  refine (Ideal.matmul_constant_zero_apply dot_S2048x256_S1024x256_S2048x1024_1_1_0_0_n_n none l r (ix2 p q)).trans ?_
  rw [← Equiv.sum_comp (ValueIdx.contrEquiv1 dot_S2048x256_S1024x256_S2048x1024_1_1_0_0_n_n 256 rfl rfl).symm]
  refine Finset.sum_congr rfl fun k _ => ?_
  have hk := ValueIdx.contrEquiv1_symm_val dot_S2048x256_S1024x256_S2048x1024_1_1_0_0_n_n 256 rfl rfl k
  have l0 : ∀ κ : dot_S2048x256_S1024x256_S2048x1024_1_1_0_0_n_n.contr.Idx, (dot_S2048x256_S1024x256_S2048x1024_1_1_0_0_n_n.lhsIdx (ix2 p q) κ 0).val = p.val := fun κ => by
    unfold DotDims.lhsIdx
    rw [dif_neg (show ¬(0 : Fin S2048x256.rank) ∈ dot_S2048x256_S1024x256_S2048x1024_1_1_0_0_n_n.lhsBatch by decide), dif_pos (show (0 : Fin S2048x256.rank) ∈ dot_S2048x256_S1024x256_S2048x1024_1_1_0_0_n_n.lhsNonContracting by decide)]
    rfl
  have r0 : ∀ κ : dot_S2048x256_S1024x256_S2048x1024_1_1_0_0_n_n.contr.Idx, (dot_S2048x256_S1024x256_S2048x1024_1_1_0_0_n_n.rhsIdx (ix2 p q) κ 0).val = q.val := fun κ => by
    unfold DotDims.rhsIdx
    rw [dif_neg (show ¬(0 : Fin S1024x256.rank) ∈ dot_S2048x256_S1024x256_S2048x1024_1_1_0_0_n_n.rhsBatch by decide), dif_pos (show (0 : Fin S1024x256.rank) ∈ dot_S2048x256_S1024x256_S2048x1024_1_1_0_0_n_n.rhsNonContracting by decide)]
    rfl
  have el : dot_S2048x256_S1024x256_S2048x1024_1_1_0_0_n_n.lhsIdx (ix2 p q) ((ValueIdx.contrEquiv1 dot_S2048x256_S1024x256_S2048x1024_1_1_0_0_n_n 256 rfl rfl).symm k) = ix2 p k := funext fun a => Fin.ext (by
    match a with
    | ⟨0, _⟩ => exact l0 _
    | ⟨1, _⟩ => exact (dot_S2048x256_S1024x256_S2048x1024_1_1_0_0_n_n.lhsIdx_val_of_single rfl (ix2 p q) _).trans hk)
  have er : dot_S2048x256_S1024x256_S2048x1024_1_1_0_0_n_n.rhsIdx (ix2 p q) ((ValueIdx.contrEquiv1 dot_S2048x256_S1024x256_S2048x1024_1_1_0_0_n_n 256 rfl rfl).symm k) = ix2 q k := funext fun a => Fin.ext (by
    match a with
    | ⟨0, _⟩ => exact r0 _
    | ⟨1, _⟩ => exact (dot_S2048x256_S1024x256_S2048x1024_1_1_0_0_n_n.rhsIdx_val_of_single rfl (ix2 p q) _).trans hk)
  rw [el, er]

/-- The rank-16 step's product at an entry: rows of the x block against the 256 columns of A. -/
theorem lowrank_dot (l : FVec Ideal S2048x256 .bf16) (r : FVec Ideal S16x256 .bf16) (p : Fin 2048) (q : Fin 16) :
    matmul dot_S2048x256_S16x256_S2048x16_1_1_0_0_n_n none l r (constant (F := Ideal) S2048x16 .f32 0x00000000#32) (ix2 p q)
      = ∑ d : Fin 256, l (ix2 p d) * r (ix2 q d) := by
  refine (Ideal.matmul_constant_zero_apply dot_S2048x256_S16x256_S2048x16_1_1_0_0_n_n none l r (ix2 p q)).trans ?_
  rw [← Equiv.sum_comp (ValueIdx.contrEquiv1 dot_S2048x256_S16x256_S2048x16_1_1_0_0_n_n 256 rfl rfl).symm]
  refine Finset.sum_congr rfl fun k _ => ?_
  have hk := ValueIdx.contrEquiv1_symm_val dot_S2048x256_S16x256_S2048x16_1_1_0_0_n_n 256 rfl rfl k
  have l0 : ∀ κ : dot_S2048x256_S16x256_S2048x16_1_1_0_0_n_n.contr.Idx, (dot_S2048x256_S16x256_S2048x16_1_1_0_0_n_n.lhsIdx (ix2 p q) κ 0).val = p.val := fun κ => by
    unfold DotDims.lhsIdx
    rw [dif_neg (show ¬(0 : Fin S2048x256.rank) ∈ dot_S2048x256_S16x256_S2048x16_1_1_0_0_n_n.lhsBatch by decide), dif_pos (show (0 : Fin S2048x256.rank) ∈ dot_S2048x256_S16x256_S2048x16_1_1_0_0_n_n.lhsNonContracting by decide)]
    rfl
  have r0 : ∀ κ : dot_S2048x256_S16x256_S2048x16_1_1_0_0_n_n.contr.Idx, (dot_S2048x256_S16x256_S2048x16_1_1_0_0_n_n.rhsIdx (ix2 p q) κ 0).val = q.val := fun κ => by
    unfold DotDims.rhsIdx
    rw [dif_neg (show ¬(0 : Fin S16x256.rank) ∈ dot_S2048x256_S16x256_S2048x16_1_1_0_0_n_n.rhsBatch by decide), dif_pos (show (0 : Fin S16x256.rank) ∈ dot_S2048x256_S16x256_S2048x16_1_1_0_0_n_n.rhsNonContracting by decide)]
    rfl
  have el : dot_S2048x256_S16x256_S2048x16_1_1_0_0_n_n.lhsIdx (ix2 p q) ((ValueIdx.contrEquiv1 dot_S2048x256_S16x256_S2048x16_1_1_0_0_n_n 256 rfl rfl).symm k) = ix2 p k := funext fun a => Fin.ext (by
    match a with
    | ⟨0, _⟩ => exact l0 _
    | ⟨1, _⟩ => exact (dot_S2048x256_S16x256_S2048x16_1_1_0_0_n_n.lhsIdx_val_of_single rfl (ix2 p q) _).trans hk)
  have er : dot_S2048x256_S16x256_S2048x16_1_1_0_0_n_n.rhsIdx (ix2 p q) ((ValueIdx.contrEquiv1 dot_S2048x256_S16x256_S2048x16_1_1_0_0_n_n 256 rfl rfl).symm k) = ix2 q k := funext fun a => Fin.ext (by
    match a with
    | ⟨0, _⟩ => exact r0 _
    | ⟨1, _⟩ => exact (dot_S2048x256_S16x256_S2048x16_1_1_0_0_n_n.rhsIdx_val_of_single rfl (ix2 p q) _).trans hk)
  rw [el, er]

/-- The last step's product at an entry: the rank-16 sums against rows of the B block. -/
theorem expand_dot (l : FVec Ideal S2048x16 .bf16) (r : FVec Ideal S1024x16 .bf16) (p : Fin 2048) (q : Fin 1024) :
    matmul dot_S2048x16_S1024x16_S2048x1024_1_1_0_0_n_n none l r (constant (F := Ideal) S2048x1024 .f32 0x00000000#32) (ix2 p q)
      = ∑ d : Fin 16, l (ix2 p d) * r (ix2 q d) := by
  refine (Ideal.matmul_constant_zero_apply dot_S2048x16_S1024x16_S2048x1024_1_1_0_0_n_n none l r (ix2 p q)).trans ?_
  rw [← Equiv.sum_comp (ValueIdx.contrEquiv1 dot_S2048x16_S1024x16_S2048x1024_1_1_0_0_n_n 16 rfl rfl).symm]
  refine Finset.sum_congr rfl fun k _ => ?_
  have hk := ValueIdx.contrEquiv1_symm_val dot_S2048x16_S1024x16_S2048x1024_1_1_0_0_n_n 16 rfl rfl k
  have l0 : ∀ κ : dot_S2048x16_S1024x16_S2048x1024_1_1_0_0_n_n.contr.Idx, (dot_S2048x16_S1024x16_S2048x1024_1_1_0_0_n_n.lhsIdx (ix2 p q) κ 0).val = p.val := fun κ => by
    unfold DotDims.lhsIdx
    rw [dif_neg (show ¬(0 : Fin S2048x16.rank) ∈ dot_S2048x16_S1024x16_S2048x1024_1_1_0_0_n_n.lhsBatch by decide), dif_pos (show (0 : Fin S2048x16.rank) ∈ dot_S2048x16_S1024x16_S2048x1024_1_1_0_0_n_n.lhsNonContracting by decide)]
    rfl
  have r0 : ∀ κ : dot_S2048x16_S1024x16_S2048x1024_1_1_0_0_n_n.contr.Idx, (dot_S2048x16_S1024x16_S2048x1024_1_1_0_0_n_n.rhsIdx (ix2 p q) κ 0).val = q.val := fun κ => by
    unfold DotDims.rhsIdx
    rw [dif_neg (show ¬(0 : Fin S1024x16.rank) ∈ dot_S2048x16_S1024x16_S2048x1024_1_1_0_0_n_n.rhsBatch by decide), dif_pos (show (0 : Fin S1024x16.rank) ∈ dot_S2048x16_S1024x16_S2048x1024_1_1_0_0_n_n.rhsNonContracting by decide)]
    rfl
  have el : dot_S2048x16_S1024x16_S2048x1024_1_1_0_0_n_n.lhsIdx (ix2 p q) ((ValueIdx.contrEquiv1 dot_S2048x16_S1024x16_S2048x1024_1_1_0_0_n_n 16 rfl rfl).symm k) = ix2 p k := funext fun a => Fin.ext (by
    match a with
    | ⟨0, _⟩ => exact l0 _
    | ⟨1, _⟩ => exact (dot_S2048x16_S1024x16_S2048x1024_1_1_0_0_n_n.lhsIdx_val_of_single rfl (ix2 p q) _).trans hk)
  have er : dot_S2048x16_S1024x16_S2048x1024_1_1_0_0_n_n.rhsIdx (ix2 p q) ((ValueIdx.contrEquiv1 dot_S2048x16_S1024x16_S2048x1024_1_1_0_0_n_n 16 rfl rfl).symm k) = ix2 q k := funext fun a => Fin.ext (by
    match a with
    | ⟨0, _⟩ => exact r0 _
    | ⟨1, _⟩ => exact (dot_S2048x16_S1024x16_S2048x1024_1_1_0_0_n_n.rhsIdx_val_of_single rfl (ix2 p q) _).trans hk)
  rw [el, er]

/-- The zero the dense running sum starts from. -/
theorem pay1_apply (j : S2048x1024.Idx) : k0_pay1 (F := Ideal) j = 0 := by
  unfold k0_pay1
  simp only [shapeCast_self]
  exact Ideal.ofBits_zero_f32

/-- The zero the rank-16 running sum starts from. -/
theorem pay2_apply (j : S2048x16.Idx) : k0_pay2 (F := Ideal) j = 0 := by
  unfold k0_pay2
  simp only [shapeCast_self]
  exact Ideal.ofBits_zero_f32

/-- One step of the dense running sum at an entry. -/
theorem pay4_apply (x0 : Vec Ideal S2048x256 .bf16) (x1 : Vec Ideal S1024x256 .bf16) (acc : Vec Ideal S2048x1024 .f32)
    (p : Fin 2048) (q : Fin 1024) :
    k0_pay4 (F := Ideal) x0 x1 acc (ix2 p q) = acc (ix2 p q) + ∑ d : Fin 256, x0 (ix2 p d) * x1 (ix2 q d) := by
  unfold k0_pay4 k0_pay3
  simp only [shapeCast_self]
  exact congrArg (acc (ix2 p q) + ·) (dense_dot x0 x1 p q)

/-- One step of the rank-16 running sum at an entry. -/
theorem pay5_apply (x0 : Vec Ideal S2048x256 .bf16) (a : Vec Ideal S16x256 .bf16) (acc : Vec Ideal S2048x16 .f32)
    (p : Fin 2048) (r : Fin 16) :
    k0_pay5 (F := Ideal) x0 a acc (ix2 p r) = acc (ix2 p r) + ∑ d : Fin 256, x0 (ix2 p d) * a (ix2 r d) := by
  unfold k0_pay5 k0_pay3
  simp only [shapeCast_self]
  exact congrArg (acc (ix2 p r) + ·) (lowrank_dot x0 a p r)

/-- The bias row broadcast down the block's rows, at an entry. -/
theorem bias_apply (x4 : Vec Ideal S1x1024 .f32) (p : Fin 2048) (q : Fin 1024) :
    broadcastTo S2048x1024 x4 broadcasts_S1x1024_S2048x1024 (ix2 p q) = x4 (ix2 (0 : Fin 1) q) :=
  broadcastTo_apply x4 broadcasts_S1x1024_S2048x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

/-- The output block at an entry, from the finished sums, the bias row and the B block. -/
theorem pay6_apply (x3 : Vec Ideal S1024x16 .bf16) (xa : Vec Ideal S2048x16 .f32) (acc : Vec Ideal S2048x1024 .f32)
    (x4 : Vec Ideal S1x1024 .f32) (p : Fin 2048) (q : Fin 1024) :
    k0_pay6 (F := Ideal) x3 xa acc x4 (ix2 p q)
      = (acc (ix2 p q) + x4 (ix2 (0 : Fin 1) q)) + Cert.LoraSpec.one * ∑ r : Fin 16, xa (ix2 p r) * x3 (ix2 q r) := by
  unfold k0_pay6
  simp only [shapeCast_self]
  show (acc (ix2 p q) + broadcastTo S2048x1024 x4 broadcasts_S1x1024_S2048x1024 (ix2 p q))
      + Cert.LoraSpec.one * matmul dot_S2048x16_S1024x16_S2048x1024_1_1_0_0_n_n none (truncf .bf16 xa bitsLt_bf16_f32) x3
          (constant (F := Ideal) S2048x1024 .f32 0x00000000#32) (ix2 p q) = _
  rw [bias_apply, expand_dot]
  rfl

end Cert.KernelIdeal.LoraPayloads

end
-- ==== Proof.Blocks.lean ====
/-
  Which entries of the arrays a grid point's blocks hold.

  Point t of the 8 × 4 × 16 grid (t = 64·i + 16·j + k) works on rows 2048·i … of x, rows 1024·j … of W and B, columns
  1024·j … of the bias row, and columns 256·k … of x, W and A (A is held whole and 256 of its columns are read).  So an
  entry of a block is the array's entry at block index × block size + the coordinate inside the block, on each axis.
-/
import proofs.«169977_j42356967473845_2_alg».proof.Proof.Pieces
import Idealize.ShloMosaic.Lib.ValueIdx

noncomputable section

open Idealize.ShloMosaic Idealize.ShloMosaic.TcCoe Idealize.SL.Sem Idealize.ShloMosaic.ValueIdx

namespace Cert.KernelIdeal.LoraBlocks

open Cert.KernelIdeal Cert.KernelIdeal.Gen Cert.KernelIdeal.LoraPieces

variable {F : FTy → Type} [FloatOps F]
variable (m : (ℓ : Loc nD τ sig) → Buf (Elt F) ℓ)

/-- The block index of every input at every point, and the first column of A a point reads: decided over the grid. -/
theorem idx_facts : ∀ t : Fin cfg0.N,
    win0_0.index t (0 : Fin 2) = t.val / 64 ∧ win0_0.index t (1 : Fin 2) = t.val % 16
    ∧ win0_1.index t (0 : Fin 2) = t.val / 16 % 4 ∧ win0_1.index t (1 : Fin 2) = t.val % 16
    ∧ win0_2.index t (0 : Fin 2) = 0 ∧ win0_2.index t (1 : Fin 2) = 0
    ∧ win0_3.index t (0 : Fin 2) = t.val / 16 % 4 ∧ win0_3.index t (1 : Fin 2) = 0
    ∧ win0_4.index t (0 : Fin 2) = 0 ∧ win0_4.index t (1 : Fin 2) = t.val / 16 % 4
    ∧ k0_off1 (grid0.coords t) (0 : Fin 2) = 0 ∧ k0_off1 (grid0.coords t) (1 : Fin 2) = 256 * (t.val % 16) :=
  (by decide +kernel : ∀ t : Fin grid0.N, _)

/-- The x block: rows from 2048·i, columns from 256·k. -/
theorem x_blk (c : Dev nD) (t : Fin cfg0.N) (p : Fin 2048) (d : Fin 256) (P : Fin 16384) (D : Fin 4096)
    (hP : P.val = 2048 * (t.val / 64) + p.val) (hD : D.val = 256 * (t.val % 16) + d.val) :
    iblk m c 0 t (ix2 p d) = V m c main_v1 (ix2 P D) := by
  obtain ⟨a00, a01, a10, a11, a20, a21, a30, a31, a40, a41, -, -⟩ := idx_facts t
  unfold iblk
  rw [View.read_apply]
  show V m c main_v1 (((cfg0.win 0).blk t).view.emb (ix2 p d)) = V m c main_v1 (ix2 P D)
  refine congrArg (V m c main_v1) (funext fun a => Fin.ext ?_)
  match a with
  | ⟨0, _⟩ => show win0_0.index t (0 : Fin 2) * 2048 + 1 * p.val = P.val; omega
  | ⟨1, _⟩ => show win0_0.index t (1 : Fin 2) * 256 + 1 * d.val = D.val; omega

/-- The W block: rows from 1024·j, columns from 256·k. -/
theorem w_blk (c : Dev nD) (t : Fin cfg0.N) (p : Fin 1024) (d : Fin 256) (P : Fin 4096) (D : Fin 4096)
    (hP : P.val = 1024 * (t.val / 16 % 4) + p.val) (hD : D.val = 256 * (t.val % 16) + d.val) :
    iblk m c 1 t (ix2 p d) = V m c main_v2 (ix2 P D) := by
  obtain ⟨a00, a01, a10, a11, a20, a21, a30, a31, a40, a41, -, -⟩ := idx_facts t
  unfold iblk
  rw [View.read_apply]
  show V m c main_v2 (((cfg0.win 1).blk t).view.emb (ix2 p d)) = V m c main_v2 (ix2 P D)
  refine congrArg (V m c main_v2) (funext fun a => Fin.ext ?_)
  match a with
  | ⟨0, _⟩ => show win0_1.index t (0 : Fin 2) * 1024 + 1 * p.val = P.val; omega
  | ⟨1, _⟩ => show win0_1.index t (1 : Fin 2) * 256 + 1 * d.val = D.val; omega

/-- A is held whole. -/
theorem a_blk (c : Dev nD) (t : Fin cfg0.N) (p : Fin 16) (d : Fin 4096) (P : Fin 16) (D : Fin 4096)
    (hP : P.val = p.val) (hD : D.val = d.val) :
    iblk m c 2 t (ix2 p d) = V m c main_v3 (ix2 P D) := by
  obtain ⟨a00, a01, a10, a11, a20, a21, a30, a31, a40, a41, -, -⟩ := idx_facts t
  unfold iblk
  rw [View.read_apply]
  show V m c main_v3 (((cfg0.win 2).blk t).view.emb (ix2 p d)) = V m c main_v3 (ix2 P D)
  refine congrArg (V m c main_v3) (funext fun a => Fin.ext ?_)
  match a with
  | ⟨0, _⟩ => show win0_2.index t (0 : Fin 2) * 16 + 1 * p.val = P.val; omega
  | ⟨1, _⟩ => show win0_2.index t (1 : Fin 2) * 4096 + 1 * d.val = D.val; omega

/-- The B block: rows from 1024·j. -/
theorem b_blk (c : Dev nD) (t : Fin cfg0.N) (p : Fin 1024) (d : Fin 16) (P : Fin 4096) (D : Fin 16)
    (hP : P.val = 1024 * (t.val / 16 % 4) + p.val) (hD : D.val = d.val) :
    iblk m c 3 t (ix2 p d) = V m c main_v4 (ix2 P D) := by
  obtain ⟨a00, a01, a10, a11, a20, a21, a30, a31, a40, a41, -, -⟩ := idx_facts t
  unfold iblk
  rw [View.read_apply]
  show V m c main_v4 (((cfg0.win 3).blk t).view.emb (ix2 p d)) = V m c main_v4 (ix2 P D)
  refine congrArg (V m c main_v4) (funext fun a => Fin.ext ?_)
  match a with
  | ⟨0, _⟩ => show win0_3.index t (0 : Fin 2) * 1024 + 1 * p.val = P.val; omega
  | ⟨1, _⟩ => show win0_3.index t (1 : Fin 2) * 16 + 1 * d.val = D.val; omega

/-- The bias block: columns from 1024·j of the one row. -/
theorem bias_blk (c : Dev nD) (t : Fin cfg0.N) (p : Fin 1) (d : Fin 1024) (P : Fin 1) (D : Fin 4096)
    (hP : P.val = p.val) (hD : D.val = 1024 * (t.val / 16 % 4) + d.val) :
    iblk m c 4 t (ix2 p d) = V m c main_v5 (ix2 P D) := by
  obtain ⟨a00, a01, a10, a11, a20, a21, a30, a31, a40, a41, -, -⟩ := idx_facts t
  unfold iblk
  rw [View.read_apply]
  show V m c main_v5 (((cfg0.win 4).blk t).view.emb (ix2 p d)) = V m c main_v5 (ix2 P D)
  refine congrArg (V m c main_v5) (funext fun a => Fin.ext ?_)
  match a with
  | ⟨0, _⟩ => show win0_4.index t (0 : Fin 2) * 1 + 1 * p.val = P.val; omega
  | ⟨1, _⟩ => show win0_4.index t (1 : Fin 2) * 1024 + 1 * d.val = D.val; omega

/-- The 256 columns of A a point reads start at column 256·k. -/
theorem a_cols (c : Dev nD) (t : Fin cfg0.N) (r : Fin 16) (d : Fin 256) (D : Fin 4096) (hD : D.val = 256 * (t.val % 16) + d.val) :
    aCols (grid0.coords t) (iblk m c 2 t) (ix2 r d) = V m c main_v3 (ix2 r D) := by
  obtain ⟨-, -, -, -, -, -, -, -, -, -, o0, o1⟩ := idx_facts t
  unfold aCols
  show iblk m c 2 t ((Rect.unit (s := S16x4096) (k0_off1 (grid0.coords t)) S16x256.size (k0_off1_inb (grid0.coords t))).emb (ix2 r d)) = _
  have e : (Rect.unit (s := S16x4096) (k0_off1 (grid0.coords t)) S16x256.size (k0_off1_inb (grid0.coords t))).emb (ix2 r d) = ix2 r D := by
    funext a; apply Fin.ext
    match a with
    | ⟨0, _⟩ => show k0_off1 (grid0.coords t) (0 : Fin 2) + 1 * r.val = r.val; omega
    | ⟨1, _⟩ => show k0_off1 (grid0.coords t) (1 : Fin 2) + 1 * d.val = D.val; omega
  rw [e]
  exact a_blk m c t r D r D rfl rfl

end Cert.KernelIdeal.LoraBlocks

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.Sums.lean ====
/-
  The running sums across a run of sixteen grid points, and the block the last point of the run writes.

  Points 16·g, …, 16·g + 15 share one output block and walk the contracted axis in sixteen chunks of 256.  The dense
  running sum after the point at offset k is 0 + Σ_{s ≤ k} (chunk s's partial product), and likewise the rank-16 sum;
  so after offset 15 they are the whole contractions over all 4096 columns (a sum over 16·256 indices is the sum of its
  sixteen consecutive blocks of 256: only commutativity and associativity of addition are used, which the extended
  reals have).  The block written at offset 15 is then (Σ_D x·W + bias) + 1 · Σ_r (Σ_D x·A_r) · B_r at every entry.
-/
import proofs.«169977_j42356967473845_2_alg».proof.Proof.Pieces
import proofs.«169977_j42356967473845_2_alg».proof.Proof.Payloads
import proofs.«169977_j42356967473845_2_alg».proof.Proof.Blocks
import proofs.«169977_j42356967473845_2_alg».proof.Proof.LibBlockedSum
import proofs.«169977_j42356967473845_2_alg».proof.Proof.Spec

noncomputable section

open Idealize.ShloMosaic Idealize.ShloMosaic.TcCoe Idealize.SL.Sem Idealize.ShloMosaic.ValueIdx

namespace Cert.KernelIdeal.LoraSums

open Cert.KernelIdeal Cert.KernelIdeal.Gen Cert.KernelIdeal.LoraPieces Cert.KernelIdeal.LoraPayloads Cert.KernelIdeal.LoraBlocks

variable (m : (ℓ : Loc nD τ sig) → Buf (Elt Ideal) ℓ)

/-! ## How the two sums move from one point to the next -/

/-- At the first point of a run the dense sum is zero plus the point's partial product. -/
theorem acc_first (c : Dev nD) (t : Fin cfg0.N) (h0 : t.val % 16 = 0) :
    (outsAt0 m c t.val t.isLt).2.1 = k0_pay4 (iblk m c 0 t) (iblk m c 1 t) (k0_pay1 (F := Ideal)) := by
  have h1 : ¬t.val % 16 = 15 := by omega
  have h2 := congrArg (fun x => x.2.1) (outsAt0_A m c t h0 h1)
  dsimp only at h2
  exact h2.trans (acc_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

/-- At the first point of a run the rank-16 sum is zero plus the point's partial product. -/
theorem xa_first (c : Dev nD) (t : Fin cfg0.N) (h0 : t.val % 16 = 0) :
    (outsAt0 m c t.val t.isLt).2.2 = k0_pay5 (iblk m c 0 t) (aCols (grid0.coords t) (iblk m c 2 t)) (k0_pay2 (F := Ideal)) := by
  have h1 : ¬t.val % 16 = 15 := by omega
  have h2 := congrArg (fun x => x.2.2) (outsAt0_A m c t h0 h1)
  dsimp only at h2
  exact h2.trans (xa_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t))

/-- At every later point the dense sum is what the point before left plus the point's partial product. -/
theorem acc_next (c : Dev nD) (t : Fin cfg0.N) (h0 : ¬t.val % 16 = 0) :
    (outsAt0 m c t.val t.isLt).2.1 = k0_pay4 (iblk m c 0 t) (iblk m c 1 t) (outsAt0 m c (t.val - 1) (Nat.lt_of_le_of_lt (Nat.sub_le _ _) t.isLt)).2.1 := by
  by_cases h1 : t.val % 16 = 15
  · have h2 := congrArg (fun x => x.2.1) (outsAt0_C m c t h0 h1)
    dsimp only at h2
    exact h2.trans (acc_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2)
  · have h2 := congrArg (fun x => x.2.1) (outsAt0_B m c t h0 h1)
    dsimp only at h2
    exact h2.trans (acc_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2)

/-- At every later point the rank-16 sum is what the point before left plus the point's partial product. -/
theorem xa_next (c : Dev nD) (t : Fin cfg0.N) (h0 : ¬t.val % 16 = 0) :
    (outsAt0 m c t.val t.isLt).2.2 = k0_pay5 (iblk m c 0 t) (aCols (grid0.coords t) (iblk m c 2 t)) (outsAt0 m c (t.val - 1) (Nat.lt_of_le_of_lt (Nat.sub_le _ _) t.isLt)).2.2 := by
  by_cases h1 : t.val % 16 = 15
  · have h2 := congrArg (fun x => x.2.2) (outsAt0_C m c t h0 h1)
    dsimp only at h2
    exact h2.trans (xa_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2)
  · have h2 := congrArg (fun x => x.2.2) (outsAt0_B m c t h0 h1)
    dsimp only at h2
    exact h2.trans (xa_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2)

/-- At the last point of a run the output block is formed from the two sums as that point leaves them. -/
theorem out_last (c : Dev nD) (t : Fin cfg0.N) (h1 : t.val % 16 = 15) :
    (outsAt0 m c t.val t.isLt).1
      = k0_pay6 (iblk m c 3 t) (outsAt0 m c t.val t.isLt).2.2 (outsAt0 m c t.val t.isLt).2.1 (iblk m c 4 t) := by
  have h0 : ¬t.val % 16 = 0 := by omega
  have h2 := congrArg (fun x => x.1) (outsAt0_C m c t h0 h1)
  dsimp only at h2
  have h3 := h2.trans (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2)
  exact h3.trans (congrArg₂ (fun a b => k0_pay6 (iblk m c 3 t) a b (iblk m c 4 t)) (xa_next m c t h0).symm (acc_next m c t h0).symm)

/-! ## The sums as folds over a run -/

/-- The x block of point `n`. -/
abbrev xB (c : Dev nD) (n : ℕ) (h : n < cfg0.N) : Vec Ideal S2048x256 .bf16 := iblk m c 0 ⟨n, h⟩
/-- The W block of point `n`. -/
abbrev wB (c : Dev nD) (n : ℕ) (h : n < cfg0.N) : Vec Ideal S1024x256 .bf16 := iblk m c 1 ⟨n, h⟩
/-- The 256 columns of A point `n` reads. -/
abbrev aB (c : Dev nD) (n : ℕ) (h : n < cfg0.N) : Vec Ideal S16x256 .bf16 := aCols (grid0.coords ⟨n, h⟩) (iblk m c 2 ⟨n, h⟩)

/-- Point `n`'s partial dense product at an entry (zero past the grid, where it is never used). -/
def denseStep (c : Dev nD) (n : ℕ) (j : S2048x1024.Idx) : EReal :=
  if h : n < cfg0.N then
    ∑ d : Fin 256, xB m c n h (ix2 (⟨(j 0).val, (j 0).isLt⟩ : Fin 2048) d) * wB m c n h (ix2 (⟨(j 1).val, (j 1).isLt⟩ : Fin 1024) d)
  else 0

/-- Point `n`'s partial rank-16 product at an entry (zero past the grid, where it is never used). -/
def lowrankStep (c : Dev nD) (n : ℕ) (j : S2048x16.Idx) : EReal :=
  if h : n < cfg0.N then
    ∑ d : Fin 256, xB m c n h (ix2 (⟨(j 0).val, (j 0).isLt⟩ : Fin 2048) d) * aB m c n h (ix2 (⟨(j 1).val, (j 1).isLt⟩ : Fin 16) d)
  else 0

/-- One dense step adds the point's partial product. -/
theorem pay4_step (c : Dev nD) (n : ℕ) (h : n < cfg0.N) (acc : Vec Ideal S2048x1024 .f32) (j : S2048x1024.Idx) :
    k0_pay4 (F := Ideal) (xB m c n h) (wB m c n h) acc j = acc j + denseStep m c n j := by
  obtain ⟨p, q, rfl⟩ : ∃ (p : Fin 2048) (q : Fin 1024), j = ix2 p q := ⟨j 0, j 1, eq_ix2 j⟩
  unfold denseStep
  rw [dif_pos h]
  exact pay4_apply (xB m c n h) (wB m c n h) acc p q

/-- One rank-16 step adds the point's partial product. -/
theorem pay5_step (c : Dev nD) (n : ℕ) (h : n < cfg0.N) (acc : Vec Ideal S2048x16 .f32) (j : S2048x16.Idx) :
    k0_pay5 (F := Ideal) (xB m c n h) (aB m c n h) acc j = acc j + lowrankStep m c n j := by
  obtain ⟨p, r, rfl⟩ : ∃ (p : Fin 2048) (r : Fin 16), j = ix2 p r := ⟨j 0, j 1, eq_ix2 j⟩
  unfold lowrankStep
  rw [dif_pos h]
  exact pay5_apply (xB m c n h) (aB m c n h) acc p r

/-- The dense sum after point `t`: zero plus the partial products of the run's points up to `t`. -/
theorem acc_fold (c : Dev nD) (t : Fin cfg0.N) (j : S2048x1024.Idx) :
    (outsAt0 m c t.val t.isLt).2.1 j = 0 + ∑ s ∈ Finset.range (t.val % 16 + 1), denseStep m c (16 * (t.val / 16) + s) j := by
  have hN : cfg0.N = 512 := N_0
  have htl : t.val < cfg0.N := t.isLt
  have h' : 16 * (t.val / 16) + t.val % 16 < cfg0.N := by omega
  have e : (outsAt0 m c t.val t.isLt).2.1
      = Pipeline.accAt (fun n h => k0_pay4 (F := Ideal) (xB m c n h) (wB m c n h) (k0_pay1 (F := Ideal)))
          (fun n h acc => k0_pay4 (F := Ideal) (xB m c n h) (wB m c n h) acc) (16 * (t.val / 16)) (t.val % 16) h' :=
    Pipeline.eq_accAt_of_mod (fun n h => (outsAt0 m c n h).2.1) 16 _ _
      (fun n h hz => acc_first m c ⟨n, h⟩ hz) (fun n h hz => acc_next m c ⟨n + 1, h⟩ hz) (by decide) t.val t.isLt h'
  rw [e]
  exact Pipeline.accAt_add_apply _ _ (fun _ => (0 : EReal)) (denseStep m c) (16 * (t.val / 16)) 15
    (fun h i => (pay4_step m c _ h (k0_pay1 (F := Ideal)) i).trans (congrArg (· + denseStep m c (16 * (t.val / 16)) i) (pay1_apply i)))
    (fun n h acc i _ _ => pay4_step m c n h acc i) (t.val % 16) (by omega) h' j

/-- The rank-16 sum after point `t`: zero plus the partial products of the run's points up to `t`. -/
theorem xa_fold (c : Dev nD) (t : Fin cfg0.N) (j : S2048x16.Idx) :
    (outsAt0 m c t.val t.isLt).2.2 j = 0 + ∑ s ∈ Finset.range (t.val % 16 + 1), lowrankStep m c (16 * (t.val / 16) + s) j := by
  have hN : cfg0.N = 512 := N_0
  have htl : t.val < cfg0.N := t.isLt
  have h' : 16 * (t.val / 16) + t.val % 16 < cfg0.N := by omega
  have e : (outsAt0 m c t.val t.isLt).2.2
      = Pipeline.accAt (fun n h => k0_pay5 (F := Ideal) (xB m c n h) (aB m c n h) (k0_pay2 (F := Ideal)))
          (fun n h acc => k0_pay5 (F := Ideal) (xB m c n h) (aB m c n h) acc) (16 * (t.val / 16)) (t.val % 16) h' :=
    Pipeline.eq_accAt_of_mod (fun n h => (outsAt0 m c n h).2.2) 16 _ _
      (fun n h hz => xa_first m c ⟨n, h⟩ hz) (fun n h hz => xa_next m c ⟨n + 1, h⟩ hz) (by decide) t.val t.isLt h'
  rw [e]
  exact Pipeline.accAt_add_apply _ _ (fun _ => (0 : EReal)) (lowrankStep m c) (16 * (t.val / 16)) 15
    (fun h i => (pay5_step m c _ h (k0_pay2 (F := Ideal)) i).trans (congrArg (· + lowrankStep m c (16 * (t.val / 16)) i) (pay2_apply i)))
    (fun n h acc i _ _ => pay5_step m c n h acc i) (t.val % 16) (by omega) h' j

/-! ## A finished run: the whole contractions -/

/-- The flattened x, as the grid finds it. -/
abbrev Xa (c : Dev nD) : (⟨2, ![16384, 4096]⟩ : Shape).Idx → EReal := V m c main_v1
/-- W, as the grid finds it. -/
abbrev Wa (c : Dev nD) : (⟨2, ![4096, 4096]⟩ : Shape).Idx → EReal := V m c main_v2
/-- A, as the grid finds it. -/
abbrev Aa (c : Dev nD) : (⟨2, ![16, 4096]⟩ : Shape).Idx → EReal := V m c main_v3

/-- One point's partial dense product is the sum over its chunk's 256 columns of the arrays' products. -/
theorem denseStep_eq (c : Dev nD) (n : ℕ) (h : n < cfg0.N) (p : Fin 2048) (q : Fin 1024) (M : Fin 16384) (o : Fin 4096)
    (hM : M.val = 2048 * (n / 64) + p.val) (ho : o.val = 1024 * (n / 16 % 4) + q.val)
    (Dof : Fin 256 → Fin 4096) (hD : ∀ d, (Dof d).val = 256 * (n % 16) + d.val) :
    denseStep m c n (ix2 p q) = ∑ d : Fin 256, Xa m c (ix2 M (Dof d)) * Wa m c (ix2 o (Dof d)) := by
  unfold denseStep
  rw [dif_pos h]
  exact Finset.sum_congr rfl fun d _ =>
    congrArg₂ (· * ·) (x_blk m c ⟨n, h⟩ p d M (Dof d) hM (hD d)) (w_blk m c ⟨n, h⟩ q d o (Dof d) ho (hD d))

/-- One point's partial rank-16 product is the sum over its chunk's 256 columns of the arrays' products. -/
theorem lowrankStep_eq (c : Dev nD) (n : ℕ) (h : n < cfg0.N) (p : Fin 2048) (r : Fin 16) (M : Fin 16384)
    (hM : M.val = 2048 * (n / 64) + p.val)
    (Dof : Fin 256 → Fin 4096) (hD : ∀ d, (Dof d).val = 256 * (n % 16) + d.val) :
    lowrankStep m c n (ix2 p r) = ∑ d : Fin 256, Xa m c (ix2 M (Dof d)) * Aa m c (ix2 r (Dof d)) := by
  unfold lowrankStep
  rw [dif_pos h]
  exact Finset.sum_congr rfl fun d _ =>
    congrArg₂ (· * ·) (x_blk m c ⟨n, h⟩ p d M (Dof d) hM (hD d)) (a_cols m c ⟨n, h⟩ r d (Dof d) (hD d))

/-- After the last point of a run the dense sum is the whole contraction over the 4096 columns. -/
theorem acc_total (c : Dev nD) (t : Fin cfg0.N) (h15 : t.val % 16 = 15) (p : Fin 2048) (q : Fin 1024) (M : Fin 16384) (o : Fin 4096)
    (hM : M.val = 2048 * (t.val / 64) + p.val) (ho : o.val = 1024 * (t.val / 16 % 4) + q.val) :
    (outsAt0 m c t.val t.isLt).2.1 (ix2 p q) = ∑ D : Fin 4096, Xa m c (ix2 M D) * Wa m c (ix2 o D) := by
  have hN : cfg0.N = 512 := N_0
  have htl : t.val < cfg0.N := t.isLt
  rw [acc_fold m c t (ix2 p q), zero_add, show t.val % 16 + 1 = 16 by omega, Finset.sum_range]
  refine Eq.trans ?_ (BlockedSum.sum_eq_sum_blocks 16 256 (fun D : Fin (16 * 256) => Xa m c (ix2 M D) * Wa m c (ix2 o D))).symm
  refine Finset.sum_congr rfl fun s _ => ?_
  have hs : s.val < 16 := s.isLt
  exact denseStep_eq m c (16 * (t.val / 16) + s.val) (by omega) p q M o (by omega) (by omega)
    (fun d => BlockedSum.blockIndex s d) (fun d => by show s.val * 256 + d.val = _; omega)

/-- After the last point of a run the rank-16 sum is the whole contraction over the 4096 columns. -/
theorem xa_total (c : Dev nD) (t : Fin cfg0.N) (h15 : t.val % 16 = 15) (p : Fin 2048) (r : Fin 16) (M : Fin 16384)
    (hM : M.val = 2048 * (t.val / 64) + p.val) :
    (outsAt0 m c t.val t.isLt).2.2 (ix2 p r) = ∑ D : Fin 4096, Xa m c (ix2 M D) * Aa m c (ix2 r D) := by
  have hN : cfg0.N = 512 := N_0
  have htl : t.val < cfg0.N := t.isLt
  rw [xa_fold m c t (ix2 p r), zero_add, show t.val % 16 + 1 = 16 by omega, Finset.sum_range]
  refine Eq.trans ?_ (BlockedSum.sum_eq_sum_blocks 16 256 (fun D : Fin (16 * 256) => Xa m c (ix2 M D) * Aa m c (ix2 r D))).symm
  refine Finset.sum_congr rfl fun s _ => ?_
  have hs : s.val < 16 := s.isLt
  exact lowrankStep_eq m c (16 * (t.val / 16) + s.val) (by omega) p r M (by omega)
    (fun d => BlockedSum.blockIndex s d) (fun d => by show s.val * 256 + d.val = _; omega)

/-- The block the last point of a run writes: the specified value at each of its entries. -/
theorem block_eq (c : Dev nD) (t : Fin cfg0.N) (h15 : t.val % 16 = 15) (p : Fin 2048) (q : Fin 1024) (M : Fin 16384) (o : Fin 4096)
    (hM : M.val = 2048 * (t.val / 64) + p.val) (ho : o.val = 1024 * (t.val / 16 % 4) + q.val) :
    (outsAt0 m c t.val t.isLt).1 (ix2 p q)
      = Cert.LoraSpec.outAt (V m c main_v1) (V m c main_v2) (V m c main_v3) (V m c main_v4) (V m c main_v5) M o := by
  rw [out_last m c t h15]
  refine (pay6_apply (iblk m c 3 t) _ _ (iblk m c 4 t) p q).trans ?_
  unfold Cert.LoraSpec.outAt
  rw [acc_total m c t h15 p q M o hM ho, bias_blk m c t 0 q 0 o rfl ho]
  refine congrArg (fun z => _ + Cert.LoraSpec.one * z) (Finset.sum_congr rfl fun r _ => ?_)
  rw [xa_total m c t h15 p r M hM, b_blk m c t q r o r ho rfl]

end Cert.KernelIdeal.LoraSums

end
-- ==== Proof.KernelArray.lean ====
/-
  From the written-back blocks to the program's result.

  The tiled computation writes the flattened result [16384, 4096] block by block: the grid (8, 4, 16) has 512
  points, point n has coordinates (n / 64, n / 16 % 4, n % 16), and the output block [2048, 1024] at block index
  (n / 64, n / 16 % 4) is written back at the points n ≡ 15 (mod 16) only.  Entry (p, q) of that block is entry
  (2048·(n / 64) + p, 1024·(n / 16 % 4) + q) of the array, and every entry (M, o) of the array lies in the block of
  exactly one such point, n = 64·(M / 2048) + 16·(o / 1024) + 15.  So, GIVEN that each written-back block holds the
  specified value at each of its entries (`BlockHyp`, a hypothesis of this module), the array after the grid is the
  specified flattened array (`final`).

  Around the grid the program only re-indexes: before it, x [4, 4096, 4096] is flattened to rows M = 4096·bt + s, the
  bias [4096] becomes a row [1, 4096], and the roundings to the narrower float type are the identity on the extended
  reals; after it, the flattened result is given its three axes back.  Reading each of these at an index turns the
  flattened specification `outArr` at (4096·bt + s, o) into `Gat` at (bt, s, o) (`result_eq`), and the run's
  postcondition follows (`run`).
-/
import proofs.«169977_j42356967473845_2_alg».proof.Proof.Gen.KernelIdeal.Frame
import proofs.«169977_j42356967473845_2_alg».proof.Proof.Spec
import Idealize.ShloMosaic.Lib.Pipeline.Value
import Idealize.ShloMosaic.Lib.ValueIdx
import Idealize.ShloMosaic.Lib.StableHlo.Run
import Idealize.ShloMosaic.Lib.Tactic

noncomputable section

namespace Cert.KernelIdeal.LoraArray

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## From blocks to the array -/

/-- What each written-back block holds (proved elsewhere; a hypothesis here): at a point n ≡ 15 (mod 16), entry (p, q)
    of the output block is the specified value at row 2048·(n / 64) + p and column 1024·(n / 16 % 4) + q. -/
def BlockHyp (c : Dev nD) : Prop :=
  ∀ (t : Fin cfg0.N), t.val % 16 = 15 → ∀ (p : Fin 2048) (q : Fin 1024) (M : Fin 16384) (o : Fin 4096),
    M.val = 2048 * (t.val / 64) + p.val → o.val = 1024 * (t.val / 16 % 4) + q.val →
    (outsAt0 m c t.val t.isLt).1 (ix2 p q)
      = Cert.LoraSpec.outAt (V m c main_v1) (V m c main_v2) (V m c main_v3) (V m c main_v4) (V m c main_v5) M o

/-- The output's block index at point n is (n / 64, n / 16 % 4): decided over the 512 points. -/
theorem idx_facts : ∀ t : Fin cfg0.N, win0_5.index t (0 : Fin 2) = t.val / 64 ∧ win0_5.index t (1 : Fin 2) = t.val / 16 % 4 :=
  (by decide +kernel : ∀ t : Fin grid0.N, _)

/-- What a flushing point writes back is its block of the flattened result array: entry (p, q) of block
    (n / 64, n / 16 % 4) sits at row 2048·(n / 64) + p and column 1024·(n / 16 % 4) + q of the array. -/
theorem flushed_eq (c : Dev nD) (h : BlockHyp m c) (t : Fin cfg0.N) (hf : (cfg0.win 5).flush t = true) :
    (dats m 0 c).flushed 5 t = ((cfg0.win 5).blk t).view.read (Elt Ideal)
      (Cert.LoraSpec.outArr (V m c main_v1) (V m c main_v2) (V m c main_v3) (V m c main_v4) (V m c main_v5)) := by
  have h15 : t.val % 16 = 15 := (flush0_5 t).mp hf
  obtain ⟨e0, e1⟩ := idx_facts t
  show (cfg0.win 5).cut (grid0.coords t) ((dats m 0 c).after 5 t) = _
  rw [after0_5]
  funext y
  have hy0 : (y 0).val < 2048 := (y 0).isLt
  have hy1 : (y 1).val < 1024 := (y 1).isLt
  -- the block's index as its two coordinates
  have hx : (cfg0.win 5).xinj (grid0.coords t) y = ix2 (⟨(y 0).val, hy0⟩ : Fin 2048) (⟨(y 1).val, hy1⟩ : Fin 1024) := by
    funext a
    match a with
    | ⟨0, _⟩ => rfl
    | ⟨1, _⟩ => rfl
  rw [View.read_apply]
  refine (congrArg (outsAt0 m c t.val t.isLt).1 hx).trans ?_
  refine h t h15 _ _ _ _ ?_ ?_
  -- a block's coordinate in the array: block index × block size + the coordinate inside the block
  · show win0_5.index t (0 : Fin 2) * 2048 + 1 * (y 0).val = 2048 * (t.val / 64) + (y 0).val
    rw [e0]; omega
  · show win0_5.index t (1 : Fin 2) * 1024 + 1 * (y 1).val = 1024 * (t.val / 16 % 4) + (y 1).val
    rw [e1]; omega

/-- An index of the array is in point n's block iff each coordinate is in the block's range on its axis. -/
theorem mem_blk (t : Fin cfg0.N) (i : S16384x4096.Idx) :
    i ∈ ((cfg0.win 5).blk t).view.set ↔ ∀ a : Fin 2, win0_5.index t a * S2048x1024.size a ≤ (i a).val ∧ (i a).val < win0_5.index t a * S2048x1024.size a + S2048x1024.size a := by
  show i ∈ ((View.whole main_v6).slice (win0_5.rect t)).set ↔ _
  rw [View.set_slice_whole, Rect.mem_set_unit]
  exact Iff.rfl

/-- Every entry (M, o) of the array is in a written-back block: that of the point 64·(M / 2048) + 16·(o / 1024) + 15. -/
theorem cover (i : S16384x4096.Idx) :
    ∃ t : Fin cfg0.N, (cfg0.win 5).flush t = true ∧ i ∈ ((cfg0.win 5).blk t).view.set := by
  have hN : cfg0.N = 512 := N_0
  have hi0 : (i 0).val < 16384 := (i 0).isLt
  have hi1 : (i 1).val < 4096 := (i 1).isLt
  obtain ⟨t, ht⟩ : ∃ t : Fin cfg0.N, t.val = 64 * ((i 0).val / 2048) + 16 * ((i 1).val / 1024) + 15 :=
    ⟨⟨64 * ((i 0).val / 2048) + 16 * ((i 1).val / 1024) + 15, by rw [hN]; omega⟩, rfl⟩
  obtain ⟨e0, e1⟩ := idx_facts t
  refine ⟨t, (flush0_5 t).mpr (by omega), ?_⟩
  rw [mem_blk]
  intro a
  match a with
  | ⟨0, _⟩ =>
    show win0_5.index t (0 : Fin 2) * 2048 ≤ (i 0).val ∧ (i 0).val < win0_5.index t (0 : Fin 2) * 2048 + 2048
    rw [e0]; omega
  | ⟨1, _⟩ =>
    show win0_5.index t (1 : Fin 2) * 1024 ≤ (i 1).val ∧ (i 1).val < win0_5.index t (1 : Fin 2) * 1024 + 1024
    rw [e1]; omega

/-- The array after the grid is the specified flattened array. -/
theorem final (c : Dev nD) (h : BlockHyp m c) :
    (dats m 0 c).arrAt 5 cfg0.N
      = Cert.LoraSpec.outArr (V m c main_v1) (V m c main_v2) (V m c main_v3) (V m c main_v4) (V m c main_v5) :=
  (dats m 0 c).arrAt_eq_of_cover 5 _ (flushed_eq m c h) cover

/-! ## The host operations before the grid, read at an index -/

/-- The first operand of the grid: x with its two leading axes flattened into rows (the rounding to the narrower
    float type is the identity on the extended reals). -/
theorem V1_eq (c : Dev nD) :
    (V m c main_v1 : S16384x4096.Idx → EReal)
      = truncf (F := Ideal) .bf16 (shapeCast S16384x4096 (m ((c : Thread nD τ).loc main_arg0) : S4x4096x4096.Idx → Ideal .f32) shapeCasts_S4x4096x4096_S16384x4096) bitsLt_bf16_f32 := by
  show StableHlo.after hostOps0 (fun b => m (c, b)) (Proc.devRef .tc main_v1) = _
  after_results
  rfl

/-- Row M = 4096·bt + s of the flattened x is row (bt, s) of x. -/
theorem V1_apply (c : Dev nD) (bt : Fin 4) (s : Fin 4096) (d : Fin 4096) (M : Fin 16384) (hM : M.val = 4096 * bt.val + s.val) :
    (V m c main_v1 : S16384x4096.Idx → EReal) (ix2 M d) = (m ((c : Thread nD τ).loc main_arg0) : S4x4096x4096.Idx → EReal) (ix3 bt s d) := by
  rw [V1_eq]
  show shapeCast S16384x4096 _ _ (ix2 M d) = _
  refine shapeCast_apply _ _ _ _ ?_
  show (S4x4096x4096.rowMajor (ix3 bt s d)).val = (S16384x4096.rowMajor (ix2 M d)).val
  rw [Shape.rowMajor_val_three, Shape.rowMajor_val_two]
  show (bt.val * 4096 + s.val) * 4096 + d.val = M.val * 4096 + d.val
  rw [hM]; omega

/-- The second operand is W itself (a rounding: the identity). -/
theorem V2_eq (c : Dev nD) : (V m c main_v2 : S4096x4096.Idx → EReal) = m ((c : Thread nD τ).loc main_arg1) := by
  show StableHlo.after hostOps0 (fun b => m (c, b)) (Proc.devRef .tc main_v2) = _
  after_results
  rfl

/-- The third operand is A itself. -/
theorem V3_eq (c : Dev nD) : (V m c main_v3 : S16x4096.Idx → EReal) = m ((c : Thread nD τ).loc main_arg3) := by
  show StableHlo.after hostOps0 (fun b => m (c, b)) (Proc.devRef .tc main_v3) = _
  after_results
  rfl

/-- The fourth operand is B itself. -/
theorem V4_eq (c : Dev nD) : (V m c main_v4 : S4096x16.Idx → EReal) = m ((c : Thread nD τ).loc main_arg4) := by
  show StableHlo.after hostOps0 (fun b => m (c, b)) (Proc.devRef .tc main_v4) = _
  after_results
  rfl

/-- The fifth operand is the bias as a one-row matrix. -/
theorem V5_eq (c : Dev nD) :
    (V m c main_v5 : S1x4096.Idx → EReal)
      = shapeCast S1x4096 (m ((c : Thread nD τ).loc main_arg2) : S4096.Idx → Ideal .f32) shapeCasts_S4096_S1x4096 := by
  show StableHlo.after hostOps0 (fun b => m (c, b)) (Proc.devRef .tc main_v5) = _
  after_results
  rfl

/-- Entry (0, o) of that row is entry o of the bias. -/
theorem V5_apply (c : Dev nD) (o : Fin 4096) :
    (V m c main_v5 : S1x4096.Idx → EReal) (ix2 (0 : Fin 1) o) = (m ((c : Thread nD τ).loc main_arg2) : S4096.Idx → EReal) (ix1 o) := by
  rw [V5_eq]
  refine shapeCast_apply _ _ _ _ ?_
  show (S4096.rowMajor (ix1 o)).val = (S1x4096.rowMajor (ix2 (0 : Fin 1) o)).val
  rw [Shape.rowMajor_val_one, Shape.rowMajor_val_two]
  show o.val = 0 * 4096 + o.val
  omega

/-! ## The host operation after the grid, and the program's result -/

/-- The program's result is the array after the grid with its row axis split back into two. -/
theorem tail_eq (c : Dev nD) (h : BlockHyp m c) :
    Pipeline.afterTail₀ cfgs (dats m) 0 (V0 m) [hostOps1] c main_v7
      = shapeCast S4x4096x4096 (Cert.LoraSpec.outArr (V m c main_v1) (V m c main_v2) (V m c main_v3) (V m c main_v4) (V m c main_v5)) shapeCasts_S16384x4096_S4x4096x4096 := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v6)
      = Cert.LoraSpec.outArr (V m c main_v1) (V m c main_v2) (V m c main_v3) (V m c main_v4) (V m c main_v5) :=
    (Pipeline.withArrays_arr spec0 launch0.win.arr_inj c (V0 m c) (fun w => (dats m 0 c).arrAt w cfg0.N) 5).trans (final m c h)
  rw [hw]
  rfl

/-- The flattened specification at row 4096·bt + s is the specification at (bt, s), when the flattened first operand is
    x re-indexed by rows and the bias row is the bias. -/
theorem outAt_eq_Gat (X : (⟨2, ![16384, 4096]⟩ : Shape).Idx → EReal) (W : (⟨2, ![4096, 4096]⟩ : Shape).Idx → EReal)
    (A : (⟨2, ![16, 4096]⟩ : Shape).Idx → EReal) (B : (⟨2, ![4096, 16]⟩ : Shape).Idx → EReal)
    (bias : (⟨2, ![1, 4096]⟩ : Shape).Idx → EReal)
    (x : (⟨3, ![4, 4096, 4096]⟩ : Shape).Idx → EReal) (b : (⟨1, ![4096]⟩ : Shape).Idx → EReal)
    (bt : Fin 4) (s : Fin 4096) (o : Fin 4096) (M : Fin 16384)
    (hX : ∀ d : Fin 4096, X (ix2 M d) = x (ix3 bt s d)) (hb : bias (ix2 (0 : Fin 1) o) = b (ix1 o)) :
    Cert.LoraSpec.outAt X W A B bias M o = Cert.LoraSpec.Gat x W b A B bt s o := by
  unfold Cert.LoraSpec.outAt Cert.LoraSpec.Gat
  simp only [hX, hb]

/-- The program's result is the specified array of the five arguments. -/
theorem result_eq (c : Dev nD) (h : BlockHyp m c) :
    Pipeline.afterTail₀ cfgs (dats m) 0 (V0 m) [hostOps1] c main_v7
      = Cert.LoraSpec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) := by
  rw [tail_eq m c h]
  funext i
  obtain ⟨bt, s, o, rfl⟩ : ∃ (bt : Fin 4) (s : Fin 4096) (o : Fin 4096), i = ix3 bt s o := ⟨i 0, i 1, i 2, eq_ix3 i⟩
  obtain ⟨M, hM⟩ : ∃ M : Fin 16384, M.val = 4096 * bt.val + s.val :=
    ⟨⟨4096 * bt.val + s.val, by have := bt.isLt; have := s.isLt; omega⟩, rfl⟩
  -- entry (bt, s, o) of the re-indexed array is entry (4096·bt + s, o) of the flattened one
  refine (shapeCast_apply _ _ (ix3 bt s o) (ix2 M o) ?_).trans ?_
  · show (S16384x4096.rowMajor (ix2 M o)).val = (S4x4096x4096.rowMajor (ix3 bt s o)).val
    rw [Shape.rowMajor_val_two, Shape.rowMajor_val_three]
    show M.val * 4096 + o.val = (bt.val * 4096 + s.val) * 4096 + o.val
    rw [hM]; omega
  · show Cert.LoraSpec.outAt _ _ _ _ _ M o = Cert.LoraSpec.Gat _ _ _ _ _ bt s o
    rw [V2_eq, V3_eq, V4_eq]
    exact outAt_eq_Gat _ _ _ _ _ _ _ bt s o M (fun d => V1_apply m c bt s d M hM) (V5_apply m c o)

/-! ## The run -/

/-- Every fair run of the program ends with the result buffer at the specified array of the five arguments, and the
    arguments as they were. -/
theorem run (h : ∀ c : Dev nD, BlockHyp m c) :
    θ_run defs (onTc (τ := τ) (main (F := Ideal))) ⟨m, fun _ => 0, ρ⟩ (fun r => ∀ c : Dev nD,
      r.2.mem ((c.tc : Thread nD τ).loc main_v7)
          = Cert.LoraSpec.G (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ hr c =>
    ⟨((hr c).2 main_v7 (Pipeline.mem_restRefs_of main_v7 (by decide) (by decide))).trans (result_eq m c (h c)),
      ((hr c).2 main_arg0 (Pipeline.mem_restRefs_of main_arg0 (by decide) (by decide))).trans (W_main_arg0 m (dats m) c),
      ((hr c).2 main_arg1 (Pipeline.mem_restRefs_of main_arg1 (by decide) (by decide))).trans (W_main_arg1 m (dats m) c),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c)⟩)
    (run_main m ρ)

end Cert.KernelIdeal.LoraArray

end
-- ==== Proof.RefValue.lean ====
/-
  The reference computes the specified function.

  Read one operation at a time, the reference's result at entry (bt, s, o) is the contraction of x[bt, s, ·] with
  W[o, ·], plus b[o], plus 1 times the contraction over r of (x[bt, s, ·] contracted with A[r, ·]) with B[o, r] — the
  specification `G`, once the operations' index maps are identified with plain coordinates.
-/
import proofs.«169977_j42356967473845_2_alg».proof.Proof.Gen.ReferenceIdeal.Read
import proofs.«169977_j42356967473845_2_alg».proof.Proof.Spec

noncomputable section

open Idealize.ShloMosaic Idealize.ShloMosaic.TcCoe Idealize.ShloMosaic.ValueIdx

namespace Cert.ReferenceIdeal.RefValue

open Cert.ReferenceIdeal Cert.ReferenceIdeal.Read

/-- The reference's result, as the composition of its operations, is `G` of its five arguments. -/
theorem ref_eq (x : (⟨S4x4096x4096, .f32⟩ : BufTy).Contents (Elt Ideal)) (W : (⟨S4096x4096, .f32⟩ : BufTy).Contents (Elt Ideal))
    (b : (⟨S4096, .f32⟩ : BufTy).Contents (Elt Ideal)) (A : (⟨S16x4096, .f32⟩ : BufTy).Contents (Elt Ideal))
    (B : (⟨S4096x16, .f32⟩ : BufTy).Contents (Elt Ideal)) :
    val_main_v8 (F := Ideal) x W b A B = Cert.LoraSpec.G x W b A B := by
  funext i
  obtain ⟨bt, s, o, rfl⟩ : ∃ (bt : Fin 4) (s : Fin 4096) (o : Fin 4096), i = ix3 bt s o := ⟨i 0, i 1, i 2, eq_ix3 i⟩
  have l0 : ∀ k : Fin 4096, lidx_main_v0 (ix3 bt s o) k = ix3 bt s k := fun k => funext fun a => Fin.ext (by
    match a with | ⟨0, _⟩ => rfl | ⟨1, _⟩ => rfl | ⟨2, _⟩ => rfl)
  have r0 : ∀ k : Fin 4096, ridx_main_v0 (ix3 bt s o) k = ix2 o k := fun k => funext fun a => Fin.ext (by
    match a with | ⟨0, _⟩ => rfl | ⟨1, _⟩ => rfl)
  have i1 : idx_main_v1 (idx_main_v2 (ix3 bt s o)) = ix1 o := funext fun a => Fin.ext (by
    match a with | ⟨0, _⟩ => rfl)
  have l5 : ∀ r : Fin 16, lidx_main_v5 (ix3 bt s o) r = ix3 bt s r := fun r => funext fun a => Fin.ext (by
    match a with | ⟨0, _⟩ => rfl | ⟨1, _⟩ => rfl | ⟨2, _⟩ => rfl)
  have r5 : ∀ r : Fin 16, ridx_main_v5 (ix3 bt s o) r = ix2 o r := fun r => funext fun a => Fin.ext (by
    match a with | ⟨0, _⟩ => rfl | ⟨1, _⟩ => rfl)
  have l4 : ∀ (r : Fin 16) (k : Fin 4096), lidx_main_v4 (ix3 bt s r) k = ix3 bt s k := fun r k => funext fun a => Fin.ext (by
    match a with | ⟨0, _⟩ => rfl | ⟨1, _⟩ => rfl | ⟨2, _⟩ => rfl)
  have r4 : ∀ (r : Fin 16) (k : Fin 4096), ridx_main_v4 (ix3 bt s r) k = ix2 r k := fun r k => funext fun a => Fin.ext (by
    match a with | ⟨0, _⟩ => rfl | ⟨1, _⟩ => rfl)
  rw [val_main_v8_apply, val_main_v3_apply, val_main_v7_apply, val_main_v0_apply, val_main_v2_apply, val_main_v1_apply,
    val_main_v6_apply, val_main_cst_apply, val_main_v5_apply]
  simp only [val_main_v4_apply, l0, r0, i1, l5, r5, l4, r4]
  rfl

end Cert.ReferenceIdeal.RefValue

end
-- ==== Proof.lean ====
/-
  A dense layer with a rank-16 correction, computed in tiles, against its plain formulation.

  Both programs take x [4, 4096, 4096], W [4096, 4096], b [4096], A [16, 4096], B [4096, 16] and return, at (bt, s, o),

      (Σ_d x[bt,s,d] · W[o,d] + b[o]) + 1 · Σ_r (Σ_d x[bt,s,d] · A[r,d]) · B[o,r]          (Spec: `G`).

  The plain formulation is three contractions, a broadcast bias and a scaling by the float 1, read off one operation at
  a time (RefValue).  The tiled one flattens (bt, s) to a row M = 4096·bt + s and walks a grid of 8 × 4 × 16 points:
  for each of the 8 × 4 output blocks [2048, 1024] it runs through the 4096 contracted columns in sixteen chunks of
  256, keeping two running sums (Pieces, Payloads, Blocks), which after the sixteenth chunk are the whole contractions —
  a sum over 16·256 indices is the sum of its sixteen consecutive blocks, by commutativity and associativity of
  addition alone, so nothing is asked of the inputs beyond what the extended reals give (Sums) — and then writes the
  block; every entry of the flattened result lies in exactly one written block, and giving the result its three axes
  back yields `G` (KernelArray).  On the extended reals a change of float format is the identity, so the narrower
  copies of x, W, A, B the tiled program works on are the arrays themselves.

  The three runs terminate without fault and leave the arguments unchanged; the idealized tiled program is the
  printed one read on the extended reals, no operation rewritten; and the two idealized programs end with equal results.
-/
import proofs.«169977_j42356967473845_2_alg».proof.Defs
import proofs.«169977_j42356967473845_2_alg».proof.Proof.Gen.Kernel
import proofs.«169977_j42356967473845_2_alg».proof.Proof.Gen.Kernel.Skeleton
import proofs.«169977_j42356967473845_2_alg».proof.Proof.Gen.Kernel.Launch
import proofs.«169977_j42356967473845_2_alg».proof.Proof.Gen.Kernel.Points
import proofs.«169977_j42356967473845_2_alg».proof.Proof.Gen.Kernel.Frame
import proofs.«169977_j42356967473845_2_alg».proof.Proof.Gen.KernelIdeal
import proofs.«169977_j42356967473845_2_alg».proof.Proof.Gen.KernelIdeal.Skeleton
import proofs.«169977_j42356967473845_2_alg».proof.Proof.Gen.KernelIdeal.Launch
import proofs.«169977_j42356967473845_2_alg».proof.Proof.Gen.KernelIdeal.Points
import proofs.«169977_j42356967473845_2_alg».proof.Proof.Gen.KernelIdeal.Frame
import proofs.«169977_j42356967473845_2_alg».proof.Proof.Gen.ReferenceIdeal
import proofs.«169977_j42356967473845_2_alg».proof.Proof.Gen.ReferenceIdeal.Run
import proofs.«169977_j42356967473845_2_alg».proof.Proof.Gen.ReferenceIdeal.Read
import proofs.«169977_j42356967473845_2_alg».proof.Proof.Gen.Pre_finite_inputs
import proofs.«169977_j42356967473845_2_alg».proof.Proof.Sums
import proofs.«169977_j42356967473845_2_alg».proof.Proof.KernelArray
import proofs.«169977_j42356967473845_2_alg».proof.Proof.RefValue
import Idealize.ShloMosaic.Adequacy
import Idealize.ShloMosaic.Init

noncomputable section

namespace Cert.Proof

open Idealize.ShloMosaic Idealize.ShloMosaic.TcCoe Idealize.SL.Sem

/-- The tiled program, on words, runs and leaves its arguments unchanged. -/
theorem frame_kernel : Cert.frame_Kernel := fun m ρ _ => Cert.Kernel.Gen.frame m ρ

/-- The tiled program, on the extended reals, runs and leaves its arguments unchanged. -/
theorem frame_kernelIdeal : Cert.frame_KernelIdeal := fun m ρ _ => Cert.KernelIdeal.Gen.frame m ρ

/-- The plain formulation runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the tiled program was rewritten for the extended reals. -/
theorem preserves : Cert.preserves_Kernel_KernelIdeal := trivial

/-- On the extended reals the tiled program's result and the plain formulation's are the one array `G` of arguments
    that agree. -/
theorem algebraic : Cert.algebraic_KernelIdeal_ReferenceIdeal := by
  intro m ρ m' ρ' _ hagree
  refine ⟨_, Cert.KernelIdeal.LoraArray.run m ρ (fun c => Cert.KernelIdeal.LoraSums.block_eq m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
